-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S512x32 : S_.BroadcastsInDim S512x32 (![] : Fin 0 → Fin S512x32.rank)
  reducesTo_S512x32_S_d0_1 : S512x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S32x16 .f32) (main_arg7 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x16 .f32 := Host.absf main_arg6
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  main_v28

def fn {F : FTy → Type} [FloatOps F] (main_arg0 : FVec F S100000x512 .f32) (main_arg1 : IVec S3200000 32) (main_arg2 : IVec S3200000 32) (main_arg3 : FVec F S3200000 .f32) (main_arg4 : FVec F S512x32 .f32) (main_arg5 : FVec F S32 .f32) (main_arg6 : FVec F S32x16 .f32) (main_arg7 : FVec F S16 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S512x32 .f32 := Host.absf main_arg4
  let main_cst_2 : FVec F S_ .f32 := constant S_ .f32 0x7F800000#32
  let main_v10 : FVec F S512x32 .f32 := broadcastInDim S512x32 ![] bcast_S_S512x32 main_cst_2
  let main_v11 : IVec S512x32 1 := cmpf .olt main_v9 main_v10
  let main_c_3 : IVec S_ 1 := constantI S_ 1 1#1
  let main_v12 : IVec S_ 1 := (fun x v => Host.reduce IntOp.andi x v reducesTo_S512x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_v13 main_v16
-- ==== Kernel.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S1x32 : Shape := ⟨2, ![1, 32]⟩
abbrev S1x16 : Shape := ⟨2, ![1, 16]⟩
abbrev S100000x16 : Shape := ⟨2, ![100000, 16]⟩
abbrev S4000x512 : Shape := ⟨2, ![4000, 512]⟩
abbrev S4000x16 : Shape := ⟨2, ![4000, 16]⟩
abbrev S4000x32 : Shape := ⟨2, ![4000, 32]⟩
abbrev S3200000x1 : Shape := ⟨2, ![3200000, 1]⟩
abbrev S_ : Shape := ⟨0, ![]⟩
abbrev S3200000x16 : Shape := ⟨2, ![3200000, 16]⟩

abbrev nBuf : Space → Nat
  | .hbm => 27
  | .vmem => 8
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S1x32, .f32⟩
  | .hbm, ⟨9, _⟩ => ⟨S1x16, .f32⟩
  | .hbm, ⟨10, _⟩ => ⟨S100000x16, .f32⟩
  | .hbm, ⟨11, _⟩ => ⟨S3200000x1, .f32⟩
  | .hbm, ⟨12, _⟩ => ⟨S_, .i32⟩
  | .hbm, ⟨13, _⟩ => ⟨S3200000, .i32⟩
  | .hbm, ⟨14, _⟩ => ⟨S3200000, .i1⟩
  | .hbm, ⟨15, _⟩ => ⟨S_, .i32⟩
  | .hbm, ⟨16, _⟩ => ⟨S3200000, .i32⟩
  | .hbm, ⟨17, _⟩ => ⟨S3200000, .i32⟩
  | .hbm, ⟨18, _⟩ => ⟨S3200000, .i32⟩
  | .hbm, ⟨19, _⟩ => ⟨S3200000x1, .i32⟩
  | .hbm, ⟨20, _⟩ => ⟨S3200000x16, .f32⟩
  | .hbm, ⟨21, _⟩ => ⟨S3200000x16, .f32⟩
  | .hbm, ⟨22, _⟩ => ⟨S3200000x16, .f32⟩
  | .hbm, ⟨23, _⟩ => ⟨S_, .f32⟩
  | .hbm, ⟨24, _⟩ => ⟨S100000x16, .f32⟩
  | .hbm, ⟨25, _⟩ => ⟨S3200000x1, .i32⟩
  | .hbm, ⟨26, _⟩ => ⟨S100000x16, .f32⟩
  | .local _ .vmem, ⟨0, _⟩ => ⟨S4000x512, .f32⟩
  | .local _ .vmem, ⟨1, _⟩ => ⟨S4000x512, .f32⟩
  | .local _ .vmem, ⟨2, _⟩ => ⟨S512x32, .f32⟩
  | .local _ .vmem, ⟨3, _⟩ => ⟨S1x32, .f32⟩
  | .local _ .vmem, ⟨4, _⟩ => ⟨S32x16, .f32⟩
  | .local _ .vmem, ⟨5, _⟩ => ⟨S1x16, .f32⟩
  | .local _ .vmem, ⟨6, _⟩ => ⟨S4000x16, .f32⟩
  | .local _ .vmem, ⟨7, _⟩ => ⟨S4000x16, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32_S1x32 : S32.ShapeCasts S1x32
  shapeCasts_S16_S1x16 : S16.ShapeCasts S1x16
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x32_S512x32_0_0 : ∀ a, (![0, 0] : Fin 2 → Nat) a + S512x32.size a ≤ S512x32.size a
  h_S512x32 : 0 < S512x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  dot_S4000x512_S512x32_S4000x32_1_0_0_1_n_n_wf : DotDims.WF S4000x512 S512x32 S4000x32 [1] [0] [0] [1] [] []
  dot_S4000x32_S32x16_S4000x16_1_0_0_1_n_n_wf : DotDims.WF S4000x32 S32x16 S4000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x16.size a ≤ S1x16.size a
  hwx0_4 : ∀ i : grid0.Coords, EltTy.bits .f32 = 32 ∨ (Rect.block (s := S1x16) S1x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x16.size a ≤ S100000x16.size a
  hwx0_5 : ∀ i : grid0.Coords, EltTy.bits .f32 = 32 ∨ (Rect.block (s := S100000x16) S4000x16.size (cc0_transform_5 i) (hinb0_5 i)).WholeWords (EltTy.packing .f32)

variable [Facts₀]

def dot_S4000x512_S512x32_S4000x32_1_0_0_1_n_n : DotDims S4000x512 S512x32 S4000x32 where
  lhsContracting := [1]
  rhsContracting := [0]
  lhsNonContracting := [0]
  rhsNonContracting := [1]
  lhsBatch := []
  rhsBatch := []
  wf := dot_S4000x512_S512x32_S4000x32_1_0_0_1_n_n_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S4000x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S3200000 : Shape := ⟨1, ![3200000]⟩
abbrev S512x32 : Shape := ⟨2, ![512, 32]⟩
abbrev S32 : Shape := ⟨1, ![32]⟩
abbrev S32x16 : Shape := ⟨2, ![32, 16]⟩
abbrev S16 : Shape := ⟨1, ![16]⟩
abbrev S100000x32 : Shape := ⟨2, ![100000, 32]⟩
abbrev S1x32 : Shape := ⟨2, ![1, 32]⟩
abbrev S_ : Shape := ⟨0, ![]⟩
abbrev S100000x16 : Shape := ⟨2, ![100000, 16]⟩
abbrev S1x16 : Shape := ⟨2, ![1, 16]⟩
abbrev S3200000x1 : Shape := ⟨2, ![3200000, 1]⟩
abbrev S3200000x16 : Shape := ⟨2, ![3200000, 16]⟩

abbrev nBuf : Space → Nat
  | .hbm => 35
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S512x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S100000x32, .f32⟩
  | .hbm, ⟨9, _⟩ => ⟨S1x32, .f32⟩
  | .hbm, ⟨10, _⟩ => ⟨S100000x32, .f32⟩
  | .hbm, ⟨11, _⟩ => ⟨S100000x32, .f32⟩
  | .hbm, ⟨12, _⟩ => ⟨S_, .f32⟩
  | .hbm, ⟨13, _⟩ => ⟨S100000x32, .f32⟩
  | .hbm, ⟨14, _⟩ => ⟨S100000x32, .f32⟩
  | .hbm, ⟨15, _⟩ => ⟨S100000x16, .f32⟩
  | .hbm, ⟨16, _⟩ => ⟨S1x16, .f32⟩
  | .hbm, ⟨17, _⟩ => ⟨S100000x16, .f32⟩
  | .hbm, ⟨18, _⟩ => ⟨S100000x16, .f32⟩
  | .hbm, ⟨19, _⟩ => ⟨S3200000x1, .f32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x16, .f32⟩
  | .hbm, ⟨29, _⟩ => ⟨S3200000x16, .f32⟩
  | .hbm, ⟨30, _⟩ => ⟨S3200000x16, .f32⟩
  | .hbm, ⟨31, _⟩ => ⟨S_, .f32⟩
  | .hbm, ⟨32, _⟩ => ⟨S100000x16, .f32⟩
  | .hbm, ⟨33, _⟩ => ⟨S3200000x1, .i32⟩
  | .hbm, ⟨34, _⟩ => ⟨S100000x16, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  dot_S100000x512_S512x32_S100000x32_1_0_0_1_n_n_wf : DotDims.WF S100000x512 S512x32 S100000x32 [1] [0] [0] [1] [] []
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1

variable [Facts₀]

def dot_S100000x512_S512x32_S100000x32_1_0_0_1_n_n : DotDims S100000x512 S512x32 S100000x32 where
  lhsContracting := [1]
  rhsContracting := [0]
  lhsNonContracting := [0]
  rhsNonContracting := [1]
  lhsBatch := []
  rhsBatch := []
  wf := dot_S100000x512_S512x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

class Facts : Prop extends Facts₀ where

variable [Facts]
-- ==== Proof.BlockValue.lean ====
/-
  What the kernel body stores for one block of 4000 nodes, read entry by entry.

  The body loads a block of features [4000, 512], the two weight matrices, and the two biases as rows [1, 32] and
  [1, 16]; it forms `max (f · W1 + b1) 0` and then `(·) · W2 + b2`, each product a matrix product into a zero accumulator,
  each bias row broadcast down the 4000 rows, the changes of float format the identity on the extended reals. At row `p`
  of the block and feature `q` this is

      Σ_{h < 32} max (Σ_{k < 512} f[p, k] · W1[k, h] + b1[0, h]) 0 · W2[h, q] + b2[0, q].
-/
import proofs.«178326_j35957466202228_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The first product: [4000, 512] × [512, 32] -/

theorem fst_lhs_row (i : S4000x32.Idx) (q : dot_S4000x512_S512x32_S4000x32_1_0_0_1_n_n.contr.Idx) :
    (dot_S4000x512_S512x32_S4000x32_1_0_0_1_n_n.lhsIdx i q 0).val = (i 0).val := by
  unfold DotDims.lhsIdx
  rw [dif_neg (show ¬(0 : Fin S4000x512.rank) ∈ dot_S4000x512_S512x32_S4000x32_1_0_0_1_n_n.lhsBatch by decide),
    dif_pos (show (0 : Fin S4000x512.rank) ∈ dot_S4000x512_S512x32_S4000x32_1_0_0_1_n_n.lhsNonContracting by decide)]
  rfl
theorem fst_lhs_col (i : S4000x32.Idx) (q : dot_S4000x512_S512x32_S4000x32_1_0_0_1_n_n.contr.Idx) :
    (dot_S4000x512_S512x32_S4000x32_1_0_0_1_n_n.lhsIdx i q 1).val = (q ⟨0, by decide⟩).val :=
  dot_S4000x512_S512x32_S4000x32_1_0_0_1_n_n.lhsIdx_val_of_single rfl i q
theorem fst_rhs_row (i : S4000x32.Idx) (q : dot_S4000x512_S512x32_S4000x32_1_0_0_1_n_n.contr.Idx) :
    (dot_S4000x512_S512x32_S4000x32_1_0_0_1_n_n.rhsIdx i q 0).val = (q ⟨0, by decide⟩).val :=
  dot_S4000x512_S512x32_S4000x32_1_0_0_1_n_n.rhsIdx_val_of_single rfl i q
theorem fst_rhs_col (i : S4000x32.Idx) (q : dot_S4000x512_S512x32_S4000x32_1_0_0_1_n_n.contr.Idx) :
    (dot_S4000x512_S512x32_S4000x32_1_0_0_1_n_n.rhsIdx i q 1).val = (i 1).val := by
  unfold DotDims.rhsIdx
  rw [dif_neg (show ¬(1 : Fin S512x32.rank) ∈ dot_S4000x512_S512x32_S4000x32_1_0_0_1_n_n.rhsBatch by decide),
    dif_pos (show (1 : Fin S512x32.rank) ∈ dot_S4000x512_S512x32_S4000x32_1_0_0_1_n_n.rhsNonContracting by decide)]
  rfl

/-- Into a zero accumulator the first product at (p, h) is the sum over the 512 input features. -/
theorem fst_product_apply (a : FVec Ideal S4000x512 .bf16) (b : FVec Ideal S512x32 .bf16) (p : Fin 4000) (h : Fin 32) :
    FloatOps.matmul dot_S4000x512_S512x32_S4000x32_1_0_0_1_n_n none a b (constant (F := Ideal) S4000x32 .f32 0x00000000#32) (ix2 p h)
      = ∑ k : Fin 512, a (ix2 p k) * b (ix2 k h) := by
  rw [Ideal.matmul_constant_zero_apply,
    ← Equiv.sum_comp (contrEquiv1 dot_S4000x512_S512x32_S4000x32_1_0_0_1_n_n 512 rfl rfl).symm]
  refine Finset.sum_congr rfl fun k _ => ?_
  have hk := contrEquiv1_symm_val dot_S4000x512_S512x32_S4000x32_1_0_0_1_n_n 512 rfl rfl k
  have el : dot_S4000x512_S512x32_S4000x32_1_0_0_1_n_n.lhsIdx (ix2 p h)
      ((contrEquiv1 dot_S4000x512_S512x32_S4000x32_1_0_0_1_n_n 512 rfl rfl).symm k) = ix2 p k := funext fun a => Fin.ext (by
    match a with
    | ⟨0, _⟩ => exact fst_lhs_row _ _
    | ⟨1, _⟩ => exact (fst_lhs_col _ _).trans hk)
  have er : dot_S4000x512_S512x32_S4000x32_1_0_0_1_n_n.rhsIdx (ix2 p h)
      ((contrEquiv1 dot_S4000x512_S512x32_S4000x32_1_0_0_1_n_n 512 rfl rfl).symm k) = ix2 k h := funext fun a => Fin.ext (by
    match a with
    | ⟨0, _⟩ => exact (fst_rhs_row _ _).trans hk
    | ⟨1, _⟩ => exact fst_rhs_col _ _)
  rw [el, er]

/-! ## The second product: [4000, 32] × [32, 16] -/

theorem snd_lhs_row (i : S4000x16.Idx) (q : dot_S4000x32_S32x16_S4000x16_1_0_0_1_n_n.contr.Idx) :
    (dot_S4000x32_S32x16_S4000x16_1_0_0_1_n_n.lhsIdx i q 0).val = (i 0).val := by
  unfold DotDims.lhsIdx
  rw [dif_neg (show ¬(0 : Fin S4000x32.rank) ∈ dot_S4000x32_S32x16_S4000x16_1_0_0_1_n_n.lhsBatch by decide),
    dif_pos (show (0 : Fin S4000x32.rank) ∈ dot_S4000x32_S32x16_S4000x16_1_0_0_1_n_n.lhsNonContracting by decide)]
  rfl
theorem snd_lhs_col (i : S4000x16.Idx) (q : dot_S4000x32_S32x16_S4000x16_1_0_0_1_n_n.contr.Idx) :
    (dot_S4000x32_S32x16_S4000x16_1_0_0_1_n_n.lhsIdx i q 1).val = (q ⟨0, by decide⟩).val :=
  dot_S4000x32_S32x16_S4000x16_1_0_0_1_n_n.lhsIdx_val_of_single rfl i q
theorem snd_rhs_row (i : S4000x16.Idx) (q : dot_S4000x32_S32x16_S4000x16_1_0_0_1_n_n.contr.Idx) :
    (dot_S4000x32_S32x16_S4000x16_1_0_0_1_n_n.rhsIdx i q 0).val = (q ⟨0, by decide⟩).val :=
  dot_S4000x32_S32x16_S4000x16_1_0_0_1_n_n.rhsIdx_val_of_single rfl i q
theorem snd_rhs_col (i : S4000x16.Idx) (q : dot_S4000x32_S32x16_S4000x16_1_0_0_1_n_n.contr.Idx) :
    (dot_S4000x32_S32x16_S4000x16_1_0_0_1_n_n.rhsIdx i q 1).val = (i 1).val := by
  unfold DotDims.rhsIdx
  rw [dif_neg (show ¬(1 : Fin S32x16.rank) ∈ dot_S4000x32_S32x16_S4000x16_1_0_0_1_n_n.rhsBatch by decide),
    dif_pos (show (1 : Fin S32x16.rank) ∈ dot_S4000x32_S32x16_S4000x16_1_0_0_1_n_n.rhsNonContracting by decide)]
  rfl

/-- Into a zero accumulator the second product at (p, q) is the sum over the 32 hidden units. -/
theorem snd_product_apply (a : FVec Ideal S4000x32 .bf16) (b : FVec Ideal S32x16 .bf16) (p : Fin 4000) (q : Fin 16) :
    FloatOps.matmul dot_S4000x32_S32x16_S4000x16_1_0_0_1_n_n none a b (constant (F := Ideal) S4000x16 .f32 0x00000000#32) (ix2 p q)
      = ∑ h : Fin 32, a (ix2 p h) * b (ix2 h q) := by
  rw [Ideal.matmul_constant_zero_apply,
    ← Equiv.sum_comp (contrEquiv1 dot_S4000x32_S32x16_S4000x16_1_0_0_1_n_n 32 rfl rfl).symm]
  refine Finset.sum_congr rfl fun k _ => ?_
  have hk := contrEquiv1_symm_val dot_S4000x32_S32x16_S4000x16_1_0_0_1_n_n 32 rfl rfl k
  have el : dot_S4000x32_S32x16_S4000x16_1_0_0_1_n_n.lhsIdx (ix2 p q)
      ((contrEquiv1 dot_S4000x32_S32x16_S4000x16_1_0_0_1_n_n 32 rfl rfl).symm k) = ix2 p k := funext fun a => Fin.ext (by
    match a with
    | ⟨0, _⟩ => exact snd_lhs_row _ _
    | ⟨1, _⟩ => exact (snd_lhs_col _ _).trans hk)
  have er : dot_S4000x32_S32x16_S4000x16_1_0_0_1_n_n.rhsIdx (ix2 p q)
      ((contrEquiv1 dot_S4000x32_S32x16_S4000x16_1_0_0_1_n_n 32 rfl rfl).symm k) = ix2 k q := funext fun a => Fin.ext (by
    match a with
    | ⟨0, _⟩ => exact (snd_rhs_row _ _).trans hk
    | ⟨1, _⟩ => exact snd_rhs_col _ _)
  rw [el, er]

/-! ## The bias rows, broadcast down the block -/

/-- The first bias row [1, 32], cast to its own shape and broadcast to [4000, 32], read at (p, h). -/
theorem fst_bias_apply (x : FVec Ideal S1x32 .f32) (p : Fin 4000) (h : Fin 32) :
    broadcastTo S4000x32 (shapeCast S1x32 x shapeCasts_S1x32_S1x32) broadcasts_S1x32_S4000x32 (ix2 p h) = x (ix2 (0 : Fin 1) h) := by
  rw [shapeCast_self]
  exact broadcastTo_apply x broadcasts_S1x32_S4000x32 (ix2 p h) (ix2 (0 : Fin 1) h) (fun a => by
    match a with
    | ⟨0, _⟩ => show (0 : Nat) = if (1 : Nat) = 1 then 0 else p.val; rw [if_pos rfl]
    | ⟨1, _⟩ => show h.val = if (32 : Nat) = 1 then 0 else h.val; rw [if_neg (by decide)])

/-- The second bias row [1, 16], cast to its own shape and broadcast to [4000, 16], read at (p, q). -/
theorem snd_bias_apply (x : FVec Ideal S1x16 .f32) (p : Fin 4000) (q : Fin 16) :
    broadcastTo S4000x16 (shapeCast S1x16 x shapeCasts_S1x16_S1x16) broadcasts_S1x16_S4000x16 (ix2 p q) = x (ix2 (0 : Fin 1) q) := by
  rw [shapeCast_self]
  exact broadcastTo_apply x broadcasts_S1x16_S4000x16 (ix2 p q) (ix2 (0 : Fin 1) q) (fun a => by
    match a with
    | ⟨0, _⟩ => show (0 : Nat) = if (1 : Nat) = 1 then 0 else p.val; rw [if_pos rfl]
    | ⟨1, _⟩ => show q.val = if (16 : Nat) = 1 then 0 else q.val; rw [if_neg (by decide)])

/-! ## The stored value at an entry of the block -/

/-- The rectified first layer of the block at (p, h). -/
def blockHidden (x0 : FVec Ideal S4000x512 .f32) (x1 : FVec Ideal S512x32 .f32) (x2 : FVec Ideal S1x32 .f32)
    (p : Fin 4000) (h : Fin 32) : EReal :=
  max ((∑ k : Fin 512, x0 (ix2 p k) * x1 (ix2 k h)) + x2 (ix2 (0 : Fin 1) h)) (Ideal.ofBits .f32 0x00000000#32)

/-- The value the body stores, at row `p` of the block and feature `q`. -/
theorem stored_apply (x0 : FVec Ideal S4000x512 .f32) (x1 : FVec Ideal S512x32 .f32) (x2 : FVec Ideal S1x32 .f32)
    (x3 : FVec Ideal S32x16 .f32) (x4 : FVec Ideal S1x16 .f32) (p : Fin 4000) (q : Fin 16) :
    k0_pay1 (F := Ideal) x0 x1 x2 x3 x4 (ix2 p q)
      = (∑ h : Fin 32, blockHidden x0 x1 x2 p h * x3 (ix2 h q)) + x4 (ix2 (0 : Fin 1) q) := by
  unfold k0_pay1
  refine (addf_apply _ _ _).trans ?_
  refine congrArg₂ (· + ·) ((snd_product_apply _ _ p q).trans (Finset.sum_congr rfl fun h _ => ?_)) (snd_bias_apply x4 p q)
  refine congrArg₂ (· * ·) ?_ rfl
  show max (FloatOps.matmul dot_S4000x512_S512x32_S4000x32_1_0_0_1_n_n none _ _ (constant (F := Ideal) S4000x32 .f32 0x00000000#32) (ix2 p h)
      + broadcastTo S4000x32 (shapeCast S1x32 x2 shapeCasts_S1x32_S1x32) broadcasts_S1x32_S4000x32 (ix2 p h)) _ = _
  rw [fst_product_apply, fst_bias_apply]
  rfl

end Cert.KernelIdeal.Block

end
-- ==== Proof.Perceptron.lean ====
/-
  The value both programs compute for one node, before the sparse aggregation: a two-layer perceptron read on the
  extended reals. For node `r` and hidden unit `h` the first layer is

      hidden r h = max (Σ_{k < 512} features[r, k] · W1[k, h] + b1[h]) 0,

  and for output feature `o` the second layer is

      node r o = Σ_{h < 32} hidden r h · W2[h, o] + b2[o].

  `nodes` is that table over all 100000 nodes and 16 features, as a function of the five dense arguments. The zero of the
  rectifier is kept as the float word of +0.0: both programs print the same word, so it is never evaluated.
-/
import Idealize.ShloMosaic.PureOps.Ideal
import Idealize.ShloMosaic.Lib.ValueIdx

noncomputable section

namespace Cert.Perceptron

open Idealize.ShloMosaic Idealize.ShloMosaic.ValueIdx

/-- The rectified first layer at node `r`, hidden unit `h`. -/
def hidden (f : (⟨2, ![100000, 512]⟩ : Shape).Idx → EReal) (W1 : (⟨2, ![512, 32]⟩ : Shape).Idx → EReal)
    (b1 : (⟨1, ![32]⟩ : Shape).Idx → EReal) (r : Fin 100000) (h : Fin 32) : EReal :=
  max ((∑ k : Fin 512, f (ix2 r k) * W1 (ix2 k h)) + b1 (ix1 h)) (Ideal.ofBits .f32 0x00000000#32)

/-- The second layer at node `r`, output feature `o`. -/
def node (f : (⟨2, ![100000, 512]⟩ : Shape).Idx → EReal) (W1 : (⟨2, ![512, 32]⟩ : Shape).Idx → EReal)
    (b1 : (⟨1, ![32]⟩ : Shape).Idx → EReal) (W2 : (⟨2, ![32, 16]⟩ : Shape).Idx → EReal)
    (b2 : (⟨1, ![16]⟩ : Shape).Idx → EReal) (r : Fin 100000) (o : Fin 16) : EReal :=
  (∑ h : Fin 32, hidden f W1 b1 r h * W2 (ix2 h o)) + b2 (ix1 o)

/-- The whole table of node features, index by index. -/
def nodes (f : (⟨2, ![100000, 512]⟩ : Shape).Idx → EReal) (W1 : (⟨2, ![512, 32]⟩ : Shape).Idx → EReal)
    (b1 : (⟨1, ![32]⟩ : Shape).Idx → EReal) (W2 : (⟨2, ![32, 16]⟩ : Shape).Idx → EReal)
    (b2 : (⟨1, ![16]⟩ : Shape).Idx → EReal) : (⟨2, ![100000, 16]⟩ : Shape).Idx → EReal :=
  fun i => node f W1 b1 W2 b2 (i 0) (i 1)

theorem nodes_apply (f : (⟨2, ![100000, 512]⟩ : Shape).Idx → EReal) (W1 : (⟨2, ![512, 32]⟩ : Shape).Idx → EReal)
    (b1 : (⟨1, ![32]⟩ : Shape).Idx → EReal) (W2 : (⟨2, ![32, 16]⟩ : Shape).Idx → EReal)
    (b2 : (⟨1, ![16]⟩ : Shape).Idx → EReal) (r : Fin 100000) (o : Fin 16) :
    nodes f W1 b1 W2 b2 (ix2 r o) = node f W1 b1 W2 b2 r o := rfl

end Cert.Perceptron

end
-- ==== Proof.NodeTable.lean ====
/-
  The node table the kernel leaves behind, as one function of the arguments.

  The grid has 25 points; point `t` works on nodes `4000·t … 4000·t + 3999`. Its feature block is rows `4000·t + p` of the
  feature matrix; the two weight matrices and the two bias rows are the same whole arrays at every point (the bias rows
  are the bias vectors, re-laid as [1, 32] and [1, 16] before the launch); and it writes back rows `4000·t + p` of the
  output. With the body's stored value read entry by entry, what point `t` writes is block `t` of `Perceptron.nodes`,
  and since every node lies in the block of point `node / 4000`, the array ends as `Perceptron.nodes` of the arguments.
-/
import proofs.«178326_j35957466202228_2_alg».proof.Proof.Gen.KernelIdeal.Frame
import proofs.«178326_j35957466202228_2_alg».proof.Proof.BlockValue
import proofs.«178326_j35957466202228_2_alg».proof.Proof.Perceptron
import Idealize.ShloMosaic.Lib.Pipeline.Value
import Idealize.ShloMosaic.Lib.StableHlo.Run

noncomputable section

namespace Cert.KernelIdeal.NodeTable

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-! ## Which block each window holds at a point -/

/-- The printed index maps over the 25 points: the feature and output windows move one block per point along the nodes,
    every other window stays on its one block. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node that row `p` of point `t`'s block is. -/
def nodeOf (t : Fin cfg0.N) (p : Fin 4000) : Fin 100000 :=
  ⟨t.val * 4000 + p.val, by have ht : t.val < 25 := lt_of_lt_of_eq t.isLt N_0; have hp := p.isLt; omega⟩

/-- Row `p` of the feature block at point `t` is the feature row of node `4000·t + p`. -/
theorem features_block (c : Dev nD) (t : Fin cfg0.N) (p : Fin 4000) (k : Fin 512) :
    iblk m c 0 t (ix2 p k) = m ((c : Thread nD τ).loc main_arg0) (ix2 (nodeOf t p) k) := by
  show V m c main_arg0 (((cfg0.win 0).blk t).view.emb (ix2 p k)) = _
  rw [V_main_arg0]
  obtain ⟨e0, e1, -⟩ := block_index t
  refine congrArg _ (funext fun a => Fin.ext ?_)
  match a with
  | ⟨0, _⟩ => show win0_0.index t (0 : Fin 2) * 4000 + 1 * p.val = t.val * 4000 + p.val; omega
  | ⟨1, _⟩ => show win0_0.index t (1 : Fin 2) * 512 + 1 * k.val = k.val; omega

/-- The first weight matrix is staged whole. -/
theorem w1_block (c : Dev nD) (t : Fin cfg0.N) (k : Fin 512) (h : Fin 32) :
    iblk m c 1 t (ix2 k h) = m ((c : Thread nD τ).loc main_arg4) (ix2 k h) := by
  show V m c main_arg4 (((cfg0.win 1).blk t).view.emb (ix2 k h)) = _
  rw [V_main_arg4]
  obtain ⟨-, -, e0, e1, -⟩ := block_index t
  refine congrArg _ (funext fun a => Fin.ext ?_)
  match a with
  | ⟨0, _⟩ => show win0_1.index t (0 : Fin 2) * 512 + 1 * k.val = k.val; omega
  | ⟨1, _⟩ => show win0_1.index t (1 : Fin 2) * 32 + 1 * h.val = h.val; omega

/-- The second weight matrix is staged whole. -/
theorem w2_block (c : Dev nD) (t : Fin cfg0.N) (h : Fin 32) (q : Fin 16) :
    iblk m c 3 t (ix2 h q) = m ((c : Thread nD τ).loc main_arg6) (ix2 h q) := by
  show V m c main_arg6 (((cfg0.win 3).blk t).view.emb (ix2 h q)) = _
  rw [V_main_arg6]
  obtain ⟨-, -, -, -, -, -, e0, e1, -⟩ := block_index t
  refine congrArg _ (funext fun a => Fin.ext ?_)
  match a with
  | ⟨0, _⟩ => show win0_3.index t (0 : Fin 2) * 32 + 1 * h.val = h.val; omega
  | ⟨1, _⟩ => show win0_3.index t (1 : Fin 2) * 16 + 1 * q.val = q.val; omega

/-- Before the launch the first bias vector is re-laid as a row [1, 32]. -/
theorem b1_row (c : Dev nD) : (V m c main_v0 : S1x32.Idx → EReal)
    = fun i => shapeCast S1x32 (m ((c : Thread nD τ).loc main_arg5)) shapeCasts_S32_S1x32 i := by
  show StableHlo.after hostOps0 (fun b => m (c, b)) (Proc.devRef .tc main_v0) = _
  after_results
  rfl

/-- Before the launch the second bias vector is re-laid as a row [1, 16]. -/
theorem b2_row (c : Dev nD) : (V m c main_v1 : S1x16.Idx → EReal)
    = fun i => shapeCast S1x16 (m ((c : Thread nD τ).loc main_arg7)) shapeCasts_S16_S1x16 i := by
  show StableHlo.after hostOps0 (fun b => m (c, b)) (Proc.devRef .tc main_v1) = _
  after_results
  rfl

/-- Entry `h` of the staged first bias row is entry `h` of the bias vector. -/
theorem b1_block (c : Dev nD) (t : Fin cfg0.N) (h : Fin 32) :
    iblk m c 2 t (ix2 (0 : Fin 1) h) = m ((c : Thread nD τ).loc main_arg5) (ix1 h) := by
  show V m c main_v0 (((cfg0.win 2).blk t).view.emb (ix2 (0 : Fin 1) h)) = _
  rw [b1_row]
  obtain ⟨-, -, -, -, e0, e1, -⟩ := block_index t
  refine shapeCast_apply _ shapeCasts_S32_S1x32 _ (ix1 h) ?_
  rw [Shape.rowMajor_val_one, Shape.rowMajor_val_two]
  show h.val = (win0_2.index t (0 : Fin 2) * 1 + 1 * 0) * 32 + (win0_2.index t (1 : Fin 2) * 32 + 1 * h.val)
  omega

/-- Entry `q` of the staged second bias row is entry `q` of the bias vector. -/
theorem b2_block (c : Dev nD) (t : Fin cfg0.N) (q : Fin 16) :
    iblk m c 4 t (ix2 (0 : Fin 1) q) = m ((c : Thread nD τ).loc main_arg7) (ix1 q) := by
  show V m c main_v1 (((cfg0.win 4).blk t).view.emb (ix2 (0 : Fin 1) q)) = _
  rw [b2_row]
  obtain ⟨-, -, -, -, -, -, -, -, e0, e1, -⟩ := block_index t
  refine shapeCast_apply _ shapeCasts_S16_S1x16 _ (ix1 q) ?_
  rw [Shape.rowMajor_val_one, Shape.rowMajor_val_two]
  show q.val = (win0_4.index t (0 : Fin 2) * 1 + 1 * 0) * 16 + (win0_4.index t (1 : Fin 2) * 16 + 1 * q.val)
  omega

/-- Row `p`, feature `q` of the output block at point `t` sits at node `4000·t + p`, feature `q` of the array. -/
theorem out_entry (t : Fin cfg0.N) (p : Fin 4000) (q : Fin 16) :
    ((cfg0.win 5).blk t).view.emb (ix2 p q) = ix2 (nodeOf t p) q := by
  obtain ⟨-, -, -, -, -, -, -, -, -, -, e0, e1⟩ := block_index t
  refine funext fun a => Fin.ext ?_
  match a with
  | ⟨0, _⟩ => show win0_5.index t (0 : Fin 2) * 4000 + 1 * p.val = t.val * 4000 + p.val; omega
  | ⟨1, _⟩ => show win0_5.index t (1 : Fin 2) * 16 + 1 * q.val = q.val; omega

/-! ## What a point writes back, and the array after the run -/

/-- The node table of the arguments as launched, on core `c`. -/
abbrev table (c : Dev nD) : S100000x16.Idx → EReal :=
  Cert.Perceptron.nodes (m ((c : Thread nD τ).loc main_arg0)) (m ((c : Thread nD τ).loc main_arg4))
    (m ((c : Thread nD τ).loc main_arg5)) (m ((c : Thread nD τ).loc main_arg6)) (m ((c : Thread nD τ).loc main_arg7))

/-- What point `t` writes back is block `t` of the node table. -/
theorem flushed_eq (c : Dev nD) (t : Fin cfg0.N) :
    (dats m 0 c).flushed 5 t = ((cfg0.win 5).blk t).view.read (Elt Ideal) (table m c) := by
  show (cfg0.win 5).cut (grid0.coords t) ((dats m 0 c).after 5 t) = _
  rw [after0_5]
  unfold out0_5
  rw [View.canon_unit_zero zero_offsets]
  simp only [View.ld_unit_zero (S := S4000x512) zero_offsets, View.ld_unit_zero (S := S512x32) zero_offsets,
    View.ld_unit_zero (S := S1x32) zero_offsets, View.ld_unit_zero (S := S32x16) zero_offsets,
    View.ld_unit_zero (S := S1x16) zero_offsets]
  funext j
  obtain ⟨p, q, rfl⟩ : ∃ (p : Fin 4000) (q : Fin 16), j = ix2 p q := ⟨j 0, j 1, eq_ix2 j⟩
  show k0_pay1 (iblk m c 0 t) (iblk m c 1 t) (iblk m c 2 t) (iblk m c 3 t) (iblk m c 4 t) (ix2 p q)
    = table m c (((cfg0.win 5).blk t).view.emb (ix2 p q))
  rw [out_entry t p q]
  refine (Block.stored_apply (iblk m c 0 t) (iblk m c 1 t) (iblk m c 2 t) (iblk m c 3 t) (iblk m c 4 t) p q).trans ?_
  show _ = Cert.Perceptron.node _ _ _ _ _ (nodeOf t p) q
  unfold Cert.Perceptron.node
  refine congrArg₂ (· + ·) (Finset.sum_congr rfl fun h _ => congrArg₂ (· * ·) ?_ (w2_block m c t h q)) (b2_block m c t q)
  unfold Block.blockHidden Cert.Perceptron.hidden
  exact congrArg₂ max (congrArg₂ (· + ·) (Finset.sum_congr rfl fun k _ =>
    congrArg₂ (· * ·) (features_block m c t p k) (w1_block m c t k h)) (b1_block m c t h)) rfl

/-- An index of the array is in point `t`'s block iff each coordinate is in the block's range on its axis. -/
theorem mem_blk (t : Fin cfg0.N) (i : S100000x16.Idx) :
    i ∈ ((cfg0.win 5).blk t).view.set ↔ ∀ a : Fin 2, win0_5.index t a * S4000x16.size a ≤ (i a).val
      ∧ (i a).val < win0_5.index t a * S4000x16.size a + S4000x16.size a := by
  show i ∈ ((View.whole main_v2).slice (win0_5.rect t)).set ↔ _
  rw [View.set_slice_whole, Rect.mem_set_unit]
  exact Iff.rfl

/-- Every node lies in the block of point `node / 4000`. -/
theorem covered (i : S100000x16.Idx) :
    ∃ t : Fin cfg0.N, (cfg0.win 5).flush t = true ∧ i ∈ ((cfg0.win 5).blk t).view.set := by
  have hi0 : (i 0).val < 100000 := (i 0).isLt
  have hi1 : (i 1).val < 16 := (i 1).isLt
  have hlt : (i 0).val / 4000 < 25 := by omega
  refine ⟨⟨(i 0).val / 4000, lt_of_lt_of_eq hlt N_0.symm⟩, flush0_5 _, ?_⟩
  obtain ⟨-, -, -, -, -, -, -, -, -, -, e0, e1⟩ := block_index ⟨(i 0).val / 4000, lt_of_lt_of_eq hlt N_0.symm⟩
  have e0' : win0_5.index ⟨(i 0).val / 4000, lt_of_lt_of_eq hlt N_0.symm⟩ (0 : Fin 2) = (i 0).val / 4000 := e0
  rw [mem_blk]
  intro a
  match a with
  | ⟨0, _⟩ =>
    show win0_5.index ⟨(i 0).val / 4000, lt_of_lt_of_eq hlt N_0.symm⟩ (0 : Fin 2) * 4000 ≤ (i 0).val
      ∧ (i 0).val < win0_5.index ⟨(i 0).val / 4000, lt_of_lt_of_eq hlt N_0.symm⟩ (0 : Fin 2) * 4000 + 4000
    omega
  | ⟨1, _⟩ =>
    show win0_5.index ⟨(i 0).val / 4000, lt_of_lt_of_eq hlt N_0.symm⟩ (1 : Fin 2) * 16 ≤ (i 1).val
      ∧ (i 1).val < win0_5.index ⟨(i 0).val / 4000, lt_of_lt_of_eq hlt N_0.symm⟩ (1 : Fin 2) * 16 + 16
    omega

/-- The output array after the run is the node table of the arguments. -/
theorem final (c : Dev nD) : (dats m 0 c).arrAt 5 cfg0.N = table m c :=
  (dats m 0 c).arrAt_eq_of_cover 5 (table m c) (fun t _ => flushed_eq m c t) covered

end Cert.KernelIdeal.NodeTable

end
-- ==== Proof.Aggregate.lean ====
/-
  The sparse aggregation both programs apply to the node table, as one function.

  Given the edges' destination rows, source columns and weights, and a node table `x` [100000, 16], the result is the
  segment sum  out[r, :] = Σ_{edges e with row e = r} w_e · x[col e, :]  — a gather of the source rows (a negative column
  index wrapped once by the number of nodes), a product with the edge weight broadcast over the 16 features, and a
  scatter-add into a table of zeros. Both programs apply exactly these operations, in this order, with the same literals, so
  the function is only ever applied, never opened: two equal node tables give equal results.
-/
import proofs.«178326_j35957466202228_2_alg».proof.Proof.Gen.KernelIdeal
import Idealize.ShloMosaic.PureOps.Ideal

noncomputable section

namespace Cert.Aggregate

open Cert.KernelIdeal Cert.KernelIdeal.Gen Idealize.ShloMosaic

/-- The weighted segment sum of gathered node rows. -/
def aggregate (rows cols : IVec S3200000 32) (w : FVec Ideal S3200000 .f32) (x : FVec Ideal S100000x16 .f32) :
    FVec Ideal S100000x16 .f32 :=
  Host.scatterAdd (F := Ideal) scatter_S100000x16_S3200000x1_S3200000x16_1_0_0_1
    (broadcastInDim S100000x16 ![] bcast_S_S100000x16 (constant (F := Ideal) S_ .f32 0x00000000#32))
    (broadcastInDim S3200000x1 ![0] bcast_S3200000_S3200000x1_0 rows)
    (mulf (broadcastInDim S3200000x16 ![0, 1] bcast_S3200000x1_S3200000x16_0_1 (broadcastInDim S3200000x1 ![0] bcast_S3200000_S3200000x1_0 w))
      (Host.gather gather_S100000x16_S3200000x1_S3200000x16_1_0_n_n_0_1_116 x
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

end Cert.Aggregate

end
-- ==== Proof.KernelResult.lean ====
/-
  The kernel program's result: the sparse aggregation of the node table.

  After the launch the output array holds the node table (`NodeTable.final`); the edge arrays are untouched by the launch.
  The operations that follow the launch are the aggregation applied to those arrays.
-/
import proofs.«178326_j35957466202228_2_alg».proof.Proof.NodeTable
import proofs.«178326_j35957466202228_2_alg».proof.Proof.Aggregate
import Idealize.ShloMosaic.Lib.StableHlo.Run

noncomputable section

namespace Cert.KernelIdeal.Result

open Cert.KernelIdeal Cert.KernelIdeal.Gen Idealize.ShloMosaic Idealize.ShloMosaic.TcCoe
open Idealize.SL.Sem Idealize.ShloMosaic.StableHlo

/-- The operations after the launch, run from ANY buffer contents `W`: they leave the aggregation of whatever `W` holds in the
    output array and the three edge arrays. -/
theorem tail_of (W : Valuation τ sig (Elt Ideal)) (x : FVec Ideal S100000x16 .f32) (rows cols : IVec S3200000 32)
    (w : FVec Ideal S3200000 .f32) (hx : W (Proc.devRef .tc main_v2) = x) (h1 : W (Proc.devRef .tc main_arg1) = rows)
    (h2 : W (Proc.devRef .tc main_arg2) = cols) (h3 : W (Proc.devRef .tc main_arg3) = w) :
    StableHlo.after (hostOps1 (F := Ideal)) W (Proc.devRef .tc main_v15) = Cert.Aggregate.aggregate rows cols w x := by
  subst hx h1 h2 h3
  after_results
  rfl

variable (m : (ℓ : Loc nD τ sig) → Buf (Elt Ideal) ℓ) (ρ : Dev nD → PrngReg)

/-- What the operations after the launch leave in the result buffer. -/
theorem tail_result (c : Dev nD) :
    Pipeline.afterTail₀ cfgs (dats m) 0 (V0 m) [hostOps1] c main_v15
      = Cert.Aggregate.aggregate (m ((c : Thread nD τ).loc main_arg1)) (m ((c : Thread nD τ).loc main_arg2))
          (m ((c : Thread nD τ).loc main_arg3)) (NodeTable.table m c) := by
  have hx : Pipeline.withArrays spec0 c (V0 m c) (fun w => (dats m 0 c).arrAt w cfg0.N) (Proc.devRef .tc main_v2)
      = NodeTable.table m c :=
    (Pipeline.withArrays_arr spec0 launch0.win.arr_inj c (V0 m c) _ 5).trans (NodeTable.final m c)
  have h1 : Pipeline.withArrays spec0 c (V0 m c) (fun w => (dats m 0 c).arrAt w cfg0.N) (Proc.devRef .tc main_arg1)
      = m ((c : Thread nD τ).loc main_arg1) :=
    (Pipeline.withArrays_of_ne spec0 c (V0 m c) _ main_arg1 (by decide)).trans (V_main_arg1 m c)
  have h2 : Pipeline.withArrays spec0 c (V0 m c) (fun w => (dats m 0 c).arrAt w cfg0.N) (Proc.devRef .tc main_arg2)
      = m ((c : Thread nD τ).loc main_arg2) :=
    (Pipeline.withArrays_of_ne spec0 c (V0 m c) _ main_arg2 (by decide)).trans (V_main_arg2 m c)
  have h3 : Pipeline.withArrays spec0 c (V0 m c) (fun w => (dats m 0 c).arrAt w cfg0.N) (Proc.devRef .tc main_arg3)
      = m ((c : Thread nD τ).loc main_arg3) :=
    (Pipeline.withArrays_of_ne spec0 c (V0 m c) _ main_arg3 (by decide)).trans (V_main_arg3 m c)
  unfold Pipeline.afterTail₀
  show StableHlo.after (hostOps1 (F := Ideal)) _ (Proc.devRef .tc main_v15) = _
  exact tail_of _ _ _ _ _ hx h1 h2 h3

/-- The kernel program runs, ends with the aggregation of the node table in its result, and keeps its arguments. -/
theorem run : θ_run defs (onTc (τ := τ) (main (F := Ideal))) ⟨m, fun _ => 0, ρ⟩ (fun r => ∀ c : Dev nD,
      r.2.mem ((c.tc : Thread nD τ).loc main_v15)
        = Cert.Aggregate.aggregate (m ((c.tc : Thread nD τ).loc main_arg1)) (m ((c.tc : Thread nD τ).loc main_arg2))
            (m ((c.tc : Thread nD τ).loc main_arg3)) (NodeTable.table m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
      ⟨((h c).2 main_v15 (Pipeline.mem_restRefs_of main_v15 (by decide) (by decide))).trans (tail_result m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).2 main_arg3 (Pipeline.mem_restRefs_of main_arg3 (by decide) (by decide))).trans (W_main_arg3 m (dats m) c),
        ((h c).1 1).trans (((dats m 0 c).arrAt_in 1 rfl _).trans ((A_eq m c 1).trans (V_main_arg4 m c))),
        ((h c).2 main_arg5 (Pipeline.mem_restRefs_of main_arg5 (by decide) (by decide))).trans (W_main_arg5 m (dats m) c),
        ((h c).1 3).trans (((dats m 0 c).arrAt_in 3 rfl _).trans ((A_eq m c 3).trans (V_main_arg6 m c))),
        ((h c).2 main_arg7 (Pipeline.mem_restRefs_of main_arg7 (by decide) (by decide))).trans (W_main_arg7 m (dats m) c)⟩)
    (run_main m ρ)

end Cert.KernelIdeal.Result

end
-- ==== Proof.ReferenceNodes.lean ====
/-
  The reference's node table is the perceptron of the specification.

  The reference computes `h = max (features · W1 + b1) 0` and `x = h · W2 + b2` with two whole-array products. Read at an
  index (node `r`, feature `o`), each product is a sum over its contracted axis, each bias is its vector entry on the
  trailing axis, and the rectifier compares with the word of +0.0: exactly `Perceptron.node r o`.
-/
import proofs.«178326_j35957466202228_2_alg».proof.Proof.Gen.ReferenceIdeal.Read
import proofs.«178326_j35957466202228_2_alg».proof.Proof.Perceptron

noncomputable section

namespace Cert.ReferenceIdeal.Nodes

open Cert.ReferenceIdeal Cert.ReferenceIdeal.Read Idealize.ShloMosaic Idealize.ShloMosaic.ValueIdx

/-! ## Which entries each stage reads -/

/-- The second product at (r, o) reads row `r` of the hidden table … -/
theorem hidden_row (r : Fin 100000) (o : Fin 16) (k : Fin 32) : lidx_main_v5 (ix2 r o) k = ix2 r k :=
  funext fun a => Fin.ext (by match a with | ⟨0, _⟩ => rfl | ⟨1, _⟩ => rfl)

/-- … against column `o` of `W2`. -/
theorem w2_col (r : Fin 100000) (o : Fin 16) (k : Fin 32) : ridx_main_v5 (ix2 r o) k = ix2 k o :=
  funext fun a => Fin.ext (by match a with | ⟨0, _⟩ => rfl | ⟨1, _⟩ => rfl)

/-- The first product at (r, h) reads row `r` of the features … -/
theorem feature_row (r : Fin 100000) (h : Fin 32) (k : Fin 512) : lidx_main_v0 (ix2 r h) k = ix2 r k :=
  funext fun a => Fin.ext (by match a with | ⟨0, _⟩ => rfl | ⟨1, _⟩ => rfl)

/-- … against column `h` of `W1`. -/
theorem w1_col (r : Fin 100000) (h : Fin 32) (k : Fin 512) : ridx_main_v0 (ix2 r h) k = ix2 k h :=
  funext fun a => Fin.ext (by match a with | ⟨0, _⟩ => rfl | ⟨1, _⟩ => rfl)

/-- The first bias, broadcast over the nodes, is read at the hidden unit. -/
theorem b1_entry (r : Fin 100000) (h : Fin 32) : idx_main_v1 (idx_main_v2 (ix2 r h)) = ix1 h :=
  funext fun a => Fin.ext (by match a with | ⟨0, _⟩ => rfl)

/-- The second bias, broadcast over the nodes, is read at the output feature. -/
theorem b2_entry (r : Fin 100000) (o : Fin 16) : idx_main_v6 (idx_main_v7 (ix2 r o)) = ix1 o :=
  funext fun a => Fin.ext (by match a with | ⟨0, _⟩ => rfl)

/-! ## The two layers -/

/-- The reference's rectified first layer, entry by entry. -/
theorem hidden_eq (x0 : (⟨S100000x512, .f32⟩ : BufTy).Contents (Elt Ideal)) (x4 : (⟨S512x32, .f32⟩ : BufTy).Contents (Elt Ideal))
    (x5 : (⟨S32, .f32⟩ : BufTy).Contents (Elt Ideal)) (r : Fin 100000) (h : Fin 32) :
    val_main_v4 (F := Ideal) x0 x4 x5 (ix2 r h) = Cert.Perceptron.hidden x0 x4 x5 r h := by
  rw [val_main_v4_apply, val_main_v3_apply, val_main_v0_apply, val_main_v2_apply, val_main_v1_apply,
    val_main_call0_v0_apply, val_main_call0_cst_apply]
  simp only [feature_row, w1_col, b1_entry, Ideal.addf_def, Ideal.maximumf_def, Ideal.ofBits_def]
  rfl

/-- The reference's node table is the specification's. -/
theorem nodes_eq (x0 : (⟨S100000x512, .f32⟩ : BufTy).Contents (Elt Ideal)) (x4 : (⟨S512x32, .f32⟩ : BufTy).Contents (Elt Ideal))
    (x5 : (⟨S32, .f32⟩ : BufTy).Contents (Elt Ideal)) (x6 : (⟨S32x16, .f32⟩ : BufTy).Contents (Elt Ideal))
    (x7 : (⟨S16, .f32⟩ : BufTy).Contents (Elt Ideal)) :
    val_main_v8 (F := Ideal) x0 x4 x5 x6 x7 = Cert.Perceptron.nodes x0 x4 x5 x6 x7 := by
  funext i
  obtain ⟨r, o, rfl⟩ : ∃ (r : Fin 100000) (o : Fin 16), i = ix2 r o := ⟨i 0, i 1, eq_ix2 i⟩
  rw [val_main_v8_apply, val_main_v5_apply, val_main_v7_apply, val_main_v6_apply]
  simp only [hidden_row, w2_col, b2_entry, hidden_eq, Ideal.addf_def]
  rfl

end Cert.ReferenceIdeal.Nodes

end
-- ==== Proof.ReferenceResult.lean ====
/-
  The reference's result: the sparse aggregation of the node table.

  The reference's last stage is the scatter-add of the weighted gathered rows of its node table; its node table is the
  perceptron of the specification (`Nodes.nodes_eq`), and the operations around it are the aggregation.
-/
import proofs.«178326_j35957466202228_2_alg».proof.Proof.ReferenceNodes
import proofs.«178326_j35957466202228_2_alg».proof.Proof.Aggregate

noncomputable section

namespace Cert.ReferenceIdeal.Result

open Cert.ReferenceIdeal Cert.ReferenceIdeal.Read Idealize.ShloMosaic

/-- The reference's result, as a function of its arguments, is the aggregation of the specification's node table. -/
theorem result_eq (x0 : (⟨S100000x512, .f32⟩ : BufTy).Contents (Elt Ideal)) (x1 x2 : (⟨S3200000, .i32⟩ : BufTy).Contents (Elt Ideal))
    (x3 : (⟨S3200000, .f32⟩ : BufTy).Contents (Elt Ideal)) (x4 : (⟨S512x32, .f32⟩ : BufTy).Contents (Elt Ideal))
    (x5 : (⟨S32, .f32⟩ : BufTy).Contents (Elt Ideal)) (x6 : (⟨S32x16, .f32⟩ : BufTy).Contents (Elt Ideal))
    (x7 : (⟨S16, .f32⟩ : BufTy).Contents (Elt Ideal)) :
    val_main_v21 (F := Ideal) x0 x1 x2 x3 x4 x5 x6 x7
      = Cert.Aggregate.aggregate x1 x2 x3 (Cert.Perceptron.nodes x0 x4 x5 x6 x7) := by
  rw [← Nodes.nodes_eq]
  rfl

end Cert.ReferenceIdeal.Result

end
-- ==== Proof.lean ====
/-
  A two-layer perceptron over 100000 nodes followed by a sparse weighted aggregation over 3.2 million edges: the kernel
  program against its plain reference, on the extended reals.

  Both programs first form the node table  x[r, o] = Σ_h max (Σ_k features[r, k] · W1[k, h] + b1[h]) 0 · W2[h, o] + b2[o]
  (`Perceptron.nodes`). The reference does it with two whole-array products; the kernel does it block by block, 4000
  nodes per grid point, with the operands rounded to a narrower float format on the way into each product — a change of
  format is the identity on the extended reals — and each product accumulated from zero, and 0 + s = s for every
  extended real s. No distributive or cancellation law is used, so the inputs' finiteness is never needed.
  Both programs then apply the same aggregation  out[r, :] = Σ_{edges e into r} w_e · x[col e, :]  to that table
  (`Aggregate.aggregate`), which is carried as one function and never opened.

  The kernel's idealization rewrote no operation, so there is nothing to preserve beyond the program text itself.
-/
import proofs.«178326_j35957466202228_2_alg».proof.Defs
import proofs.«178326_j35957466202228_2_alg».proof.Proof.Gen.Kernel
import proofs.«178326_j35957466202228_2_alg».proof.Proof.Gen.Kernel.Frame
import proofs.«178326_j35957466202228_2_alg».proof.Proof.Gen.KernelIdeal
import proofs.«178326_j35957466202228_2_alg».proof.Proof.Gen.KernelIdeal.Frame
import proofs.«178326_j35957466202228_2_alg».proof.Proof.Gen.ReferenceIdeal
import proofs.«178326_j35957466202228_2_alg».proof.Proof.Gen.ReferenceIdeal.Run
import proofs.«178326_j35957466202228_2_alg».proof.Proof.Gen.ReferenceIdeal.Read
import proofs.«178326_j35957466202228_2_alg».proof.Proof.Gen.Pre_finite_inputs
import proofs.«178326_j35957466202228_2_alg».proof.Proof.KernelResult
import proofs.«178326_j35957466202228_2_alg».proof.Proof.ReferenceResult
import Idealize.ShloMosaic.Adequacy
import Idealize.ShloMosaic.Init

noncomputable section

namespace Cert.Proof

open Idealize.ShloMosaic Idealize.ShloMosaic.TcCoe Idealize.SL.Sem

/-- The kernel program at the word level runs and keeps its arguments. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the aggregation of the one node table. -/
theorem algebraic : Cert.algebraic_KernelIdeal_ReferenceIdeal := by
  intro m ρ m' ρ' _ hagree
  refine ⟨fun c => Cert.Aggregate.aggregate (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (Cert.KernelIdeal.NodeTable.table m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v21_eq, Cert.ReferenceIdeal.Result.result_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
